-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S128x3 : Shape := ⟨2, ![128, 3]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S1x64 .f32) (main_arg6 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S131072x3 .f32) (main_arg1 : FVec F S128x3 .f32) (main_arg2 : FVec F S128 .f32) (main_arg3 : FVec F S64x128 .f32) (main_arg4 : FVec F S64 .f32) (main_arg5 : FVec F S1x64 .f32) (main_arg6 : FVec F S1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_v13 main_v16
-- ==== Kernel.lean ====
abbrev S131072x3 : Shape := ⟨2, ![131072, 3]⟩
abbrev S128x3 : Shape := ⟨2, ![128, 3]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S3x131072 : Shape := ⟨2, ![3, 131072]⟩
abbrev S128x1 : Shape := ⟨2, ![128, 1]⟩
abbrev S64x1 : Shape := ⟨2, ![64, 1]⟩
abbrev S_ : Shape := ⟨0, ![]⟩
abbrev S1x131072 : Shape := ⟨2, ![1, 131072]⟩
abbrev S3x4096 : Shape := ⟨2, ![3, 4096]⟩
abbrev S1x4096 : Shape := ⟨2, ![1, 4096]⟩
abbrev S128x4096 : Shape := ⟨2, ![128, 4096]⟩
abbrev S64x4096 : Shape := ⟨2, ![64, 4096]⟩
abbrev S131072x1 : Shape := ⟨2, ![131072, 1]⟩

abbrev nBuf : Space → Nat
  | .hbm => 16
  | .vmem => 10
  | .smem => 0
  | _ => 0

abbrev bufTy : (tb : Table) → Fin (tcTables nBuf tb) → BufTy
  | .hbm, ⟨0, _⟩ => ⟨S131072x3, .f32⟩
  | .hbm, ⟨1, _⟩ => ⟨S128x3, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S3x131072, .f32⟩
  | .hbm, ⟨8, _⟩ => ⟨S128x1, .f32⟩
  | .hbm, ⟨9, _⟩ => ⟨S64x1, .f32⟩
  | .hbm, ⟨10, _⟩ => ⟨S128x3, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S1x131072, .f32⟩
  | .hbm, ⟨15, _⟩ => ⟨S131072x1, .f32⟩
  | .local _ .vmem, ⟨0, _⟩ => ⟨S3x4096, .f32⟩
  | .local _ .vmem, ⟨1, _⟩ => ⟨S3x4096, .f32⟩
  | .local _ .vmem, ⟨2, _⟩ => ⟨S128x3, .f32⟩
  | .local _ .vmem, ⟨3, _⟩ => ⟨S128x1, .f32⟩
  | .local _ .vmem, ⟨4, _⟩ => ⟨S64x128, .f32⟩
  | .local _ .vmem, ⟨5, _⟩ => ⟨S64x1, .f32⟩
  | .local _ .vmem, ⟨6, _⟩ => ⟨S1x64, .f32⟩
  | .local _ .vmem, ⟨7, _⟩ => ⟨S128x1, .f32⟩
  | .local _ .vmem, ⟨8, _⟩ => ⟨S1x4096, .f32⟩
  | .local _ .vmem, ⟨9, _⟩ => ⟨S1x4096, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S131072x3_S3x131072_1_0 : S131072x3.Transposes [1, 0] S3x131072
  shapeCasts_S128_S128x1 : S128.ShapeCasts S128x1
  shapeCasts_S64_S64x1 : S64.ShapeCasts S64x1
  reducesTo_S128x3_S128_d1 : S128x3.ReducesTo [1] S128
  h_S_ : 0 < S_.numel
  bcast_S128_S128x1_0 : S128.BroadcastsInDim S128x1 (![0] : Fin 1 → Fin S128x1.rank)
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  inb_S128x3_S128x3_0_0 : ∀ a, (![0, 0] : Fin 2 → Nat) a + S128x3.size a ≤ S128x3.size a
  h_S128x3 : 0 < S128x3.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  broadcasts_S128x1_S128x4096 : S128x1.Broadcasts S128x4096
  broadcasts_S64x1_S64x4096 : S64x1.Broadcasts S64x4096
  slices_S128x3_o0_0_S128x1 : S128x3.Slices ![0, 0] S128x1
  slices_S128x3_o0_1_S128x1 : S128x3.Slices ![0, 1] S128x1
  slices_S128x3_o0_2_S128x1 : S128x3.Slices ![0, 2] S128x1
  inb_S1x4096_S1x4096_0_0 : ∀ a, (![0, 0] : Fin 2 → Nat) a + S1x4096.size a ≤ S1x4096.size a
  h_S1x4096 : 0 < S1x4096.numel
  transposes_S1x131072_S131072x1_1_0 : S1x131072.Transposes [1, 0] S131072x1
  dot_S128x3_S3x4096_S128x4096_1_0_0_1_n_n_wf : DotDims.WF S128x3 S3x4096 S128x4096 [1] [0] [0] [1] [] []
  dot_S64x128_S128x4096_S64x4096_1_0_0_1_n_n_wf : DotDims.WF S64x128 S128x4096 S64x4096 [1] [0] [0] [1] [] []
  dot_S1x64_S64x4096_S1x4096_1_0_0_1_n_n_wf : DotDims.WF S1x64 S64x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096.size a ≤ S3x131072.size a
  hwx0_0 : ∀ i : grid0.Coords, EltTy.bits .f32 = 32 ∨ (Rect.block (s := S3x131072) S3x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x131072.size a
  hwx0_7 : ∀ i : grid0.Coords, EltTy.bits .f32 = 32 ∨ (Rect.block (s := S1x131072) S1x4096.size (cc0_transform_7 i) (hinb0_7 i)).WholeWords (EltTy.packing .f32)

variable [Facts₀]

def dot_S128x3_S3x4096_S128x4096_1_0_0_1_n_n : DotDims S128x3 S3x4096 S128x4096 where
  lhsContracting := [1]
  rhsContracting := [0]
  lhsNonContracting := [0]
  rhsNonContracting := [1]
  lhsBatch := []
  rhsBatch := []
  wf := dot_S128x3_S3x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S1x64_S64x4096_S1x4096_1_0_0_1_n_n : DotDims S1x64 S64x4096 S1x4096 where
  lhsContracting := [1]
  rhsContracting := [0]
  lhsNonContracting := [0]
  rhsNonContracting := [1]
  lhsBatch := []
  rhsBatch := []
  wf := dot_S1x64_S64x4096_S1x4096_1_0_0_1_n_n_wf

abbrev win0_0 : Pipeline.Window sig grid0 :=
  Pipeline.Window.ofSpec (Memref.whole main_v0) S3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x3 : Shape := ⟨2, ![131072, 3]⟩
abbrev S128x3 : Shape := ⟨2, ![128, 3]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S131072x1x3 : Shape := ⟨3, ![131072, 1, 3]⟩
abbrev S131072x3x3 : Shape := ⟨3, ![131072, 3, 3]⟩
abbrev S3x3 : Shape := ⟨2, ![3, 3]⟩
abbrev S_ : Shape := ⟨0, ![]⟩
abbrev S131072x3x128 : Shape := ⟨3, ![131072, 3, 128]⟩
abbrev S1x1x128 : Shape := ⟨3, ![1, 1, 128]⟩
abbrev S131072x3x64 : Shape := ⟨3, ![131072, 3, 64]⟩
abbrev S1x1x64 : Shape := ⟨3, ![1, 1, 64]⟩
abbrev S131072x3x1 : Shape := ⟨3, ![131072, 3, 1]⟩
abbrev S1x1x1 : Shape := ⟨3, ![1, 1, 1]⟩
abbrev S131072x1 : Shape := ⟨2, ![131072, 1]⟩

abbrev nBuf : Space → Nat
  | .hbm => 67
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S128x3, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S131072x1x3, .f32⟩
  | .hbm, ⟨8, _⟩ => ⟨S131072x3x3, .f32⟩
  | .hbm, ⟨9, _⟩ => ⟨S3x3, .i32⟩
  | .hbm, ⟨10, _⟩ => ⟨S3x3, .i32⟩
  | .hbm, ⟨11, _⟩ => ⟨S_, .i32⟩
  | .hbm, ⟨12, _⟩ => ⟨S3x3, .i32⟩
  | .hbm, ⟨13, _⟩ => ⟨S3x3, .i32⟩
  | .hbm, ⟨14, _⟩ => ⟨S3x3, .i1⟩
  | .hbm, ⟨15, _⟩ => ⟨S3x3, .f32⟩
  | .hbm, ⟨16, _⟩ => ⟨S131072x3x3, .f32⟩
  | .hbm, ⟨17, _⟩ => ⟨S_, .f32⟩
  | .hbm, ⟨18, _⟩ => ⟨S131072x3x3, .f32⟩
  | .hbm, ⟨19, _⟩ => ⟨S131072x3x128, .f32⟩
  | .hbm, ⟨20, _⟩ => ⟨S1x1x128, .f32⟩
  | .hbm, ⟨21, _⟩ => ⟨S131072x3x128, .f32⟩
  | .hbm, ⟨22, _⟩ => ⟨S131072x3x128, .f32⟩
  | .hbm, ⟨23, _⟩ => ⟨S131072x3x128, .f32⟩
  | .hbm, ⟨24, _⟩ => ⟨S131072x3x128, .f32⟩
  | .hbm, ⟨25, _⟩ => ⟨S131072x3x128, .f32⟩
  | .hbm, ⟨26, _⟩ => ⟨S131072x3x128, .f32⟩
  | .hbm, ⟨27, _⟩ => ⟨S_, .f32⟩
  | .hbm, ⟨28, _⟩ => ⟨S131072x3x128, .f32⟩
  | .hbm, ⟨29, _⟩ => ⟨S131072x3x128, .f32⟩
  | .hbm, ⟨30, _⟩ => ⟨S131072x3x128, .f32⟩
  | .hbm, ⟨31, _⟩ => ⟨S131072x3x128, .f32⟩
  | .hbm, ⟨32, _⟩ => ⟨S_, .f32⟩
  | .hbm, ⟨33, _⟩ => ⟨S131072x3x128, .f32⟩
  | .hbm, ⟨34, _⟩ => ⟨S131072x3x128, .f32⟩
  | .hbm, ⟨35, _⟩ => ⟨S131072x3x128, .f32⟩
  | .hbm, ⟨36, _⟩ => ⟨S131072x3x128, .f32⟩
  | .hbm, ⟨37, _⟩ => ⟨S131072x3x128, .f32⟩
  | .hbm, ⟨38, _⟩ => ⟨S131072x3x128, .f32⟩
  | .hbm, ⟨39, _⟩ => ⟨S131072x3x64, .f32⟩
  | .hbm, ⟨40, _⟩ => ⟨S1x1x64, .f32⟩
  | .hbm, ⟨41, _⟩ => ⟨S131072x3x64, .f32⟩
  | .hbm, ⟨42, _⟩ => ⟨S131072x3x64, .f32⟩
  | .hbm, ⟨43, _⟩ => ⟨S131072x3x64, .f32⟩
  | .hbm, ⟨44, _⟩ => ⟨S131072x3x64, .f32⟩
  | .hbm, ⟨45, _⟩ => ⟨S131072x3x64, .f32⟩
  | .hbm, ⟨46, _⟩ => ⟨S131072x3x64, .f32⟩
  | .hbm, ⟨47, _⟩ => ⟨S_, .f32⟩
  | .hbm, ⟨48, _⟩ => ⟨S131072x3x64, .f32⟩
  | .hbm, ⟨49, _⟩ => ⟨S131072x3x64, .f32⟩
  | .hbm, ⟨50, _⟩ => ⟨S131072x3x64, .f32⟩
  | .hbm, ⟨51, _⟩ => ⟨S131072x3x64, .f32⟩
  | .hbm, ⟨52, _⟩ => ⟨S_, .f32⟩
  | .hbm, ⟨53, _⟩ => ⟨S131072x3x64, .f32⟩
  | .hbm, ⟨54, _⟩ => ⟨S131072x3x64, .f32⟩
  | .hbm, ⟨55, _⟩ => ⟨S131072x3x64, .f32⟩
  | .hbm, ⟨56, _⟩ => ⟨S131072x3x64, .f32⟩
  | .hbm, ⟨57, _⟩ => ⟨S131072x3x64, .f32⟩
  | .hbm, ⟨58, _⟩ => ⟨S131072x3x64, .f32⟩
  | .hbm, ⟨59, _⟩ => ⟨S131072x3x1, .f32⟩
  | .hbm, ⟨60, _⟩ => ⟨S1x1x1, .f32⟩
  | .hbm, ⟨61, _⟩ => ⟨S131072x3x1, .f32⟩
  | .hbm, ⟨62, _⟩ => ⟨S131072x3x1, .f32⟩
  | .hbm, ⟨63, _⟩ => ⟨S131072x3x1, .f32⟩
  | .hbm, ⟨64, _⟩ => ⟨S131072x3x1, .f32⟩
  | .hbm, ⟨65, _⟩ => ⟨S_, .f32⟩
  | .hbm, ⟨66, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩

abbrev nD : Nat := 1
abbrev τ : Topo := Topo.v7x

variable {F : FTy → Type} [FloatOps F]

class Facts₀ : Prop where
  bcast_S131072x3_S131072x1x3_0_2 : S131072x3.BroadcastsInDim S131072x1x3 (![0, 2] : Fin 2 → Fin S131072x1x3.rank)
  bcast_S131072x1x3_S131072x3x3_0_1_2 : S131072x1x3.BroadcastsInDim S131072x3x3 (![0, 1, 2] : Fin 3 → Fin S131072x3x3.rank)
  bcast_S_S3x3 : S_.BroadcastsInDim S3x3 (![] : Fin 0 → Fin S3x3.rank)
  bcast_S3x3_S131072x3x3_1_2 : S3x3.BroadcastsInDim S131072x3x3 (![1, 2] : Fin 2 → Fin S131072x3x3.rank)
  bcast_S_S131072x3x3 : S_.BroadcastsInDim S131072x3x3 (![] : Fin 0 → Fin S131072x3x3.rank)
  bcast_S128_S1x1x128_2 : S128.BroadcastsInDim S1x1x128 (![2] : Fin 1 → Fin S1x1x128.rank)
  bcast_S1x1x128_S131072x3x128_0_1_2 : S1x1x128.BroadcastsInDim S131072x3x128 (![0, 1, 2] : Fin 3 → Fin S131072x3x128.rank)
  bcast_S_S131072x3x128 : S_.BroadcastsInDim S131072x3x128 (![] : Fin 0 → Fin S131072x3x128.rank)
  bcast_S64_S1x1x64_2 : S64.BroadcastsInDim S1x1x64 (![2] : Fin 1 → Fin S1x1x64.rank)
  bcast_S1x1x64_S131072x3x64_0_1_2 : S1x1x64.BroadcastsInDim S131072x3x64 (![0, 1, 2] : Fin 3 → Fin S131072x3x64.rank)
  bcast_S_S131072x3x64 : S_.BroadcastsInDim S131072x3x64 (![] : Fin 0 → Fin S131072x3x64.rank)
  bcast_S1_S1x1x1_2 : S1.BroadcastsInDim S1x1x1 (![2] : Fin 1 → Fin S1x1x1.rank)
  bcast_S1x1x1_S131072x3x1_0_1_2 : S1x1x1.BroadcastsInDim S131072x3x1 (![0, 1, 2] : Fin 3 → Fin S131072x3x1.rank)
  reducesTo_S131072x3x1_S131072x1_d1 : S131072x3x1.ReducesTo [1] S131072x1
  h_S_ : 0 < S_.numel
  dot_S131072x3x3_S128x3_S131072x3x128_2_1_01_0_n_n_wf : DotDims.WF S131072x3x3 S128x3 S131072x3x128 [2] [1] [0, 1] [0] [] []
  dot_S131072x3x128_S64x128_S131072x3x64_2_1_01_0_n_n_wf : DotDims.WF S131072x3x128 S64x128 S131072x3x64 [2] [1] [0, 1] [0] [] []
  dot_S131072x3x64_S1x64_S131072x3x1_2_1_01_0_n_n_wf : DotDims.WF S131072x3x64 S1x64 S131072x3x1 [2] [1] [0, 1] [0] [] []

variable [Facts₀]

def dot_S131072x3x3_S128x3_S131072x3x128_2_1_01_0_n_n : DotDims S131072x3x3 S128x3 S131072x3x128 where
  lhsContracting := [2]
  rhsContracting := [1]
  lhsNonContracting := [0, 1]
  rhsNonContracting := [0]
  lhsBatch := []
  rhsBatch := []
  wf := dot_S131072x3x3_S128x3_S131072x3x128_2_1_01_0_n_n_wf
def dot_S131072x3x128_S64x128_S131072x3x64_2_1_01_0_n_n : DotDims S131072x3x128 S64x128 S131072x3x64 where
  lhsContracting := [2]
  rhsContracting := [1]
  lhsNonContracting := [0, 1]
  rhsNonContracting := [0]
  lhsBatch := []
  rhsBatch := []
  wf := dot_S131072x3x128_S64x128_S131072x3x64_2_1_01_0_n_n_wf
def dot_S131072x3x64_S1x64_S131072x3x1_2_1_01_0_n_n : DotDims S131072x3x64 S1x64 S131072x3x1 where
  lhsContracting := [2]
  rhsContracting := [1]
  lhsNonContracting := [0, 1]
  rhsNonContracting := [0]
  lhsBatch := []
  rhsBatch := []
  wf := dot_S131072x3x64_S1x64_S131072x3x1_2_1_01_0_n_n_wf

class Facts : Prop extends Facts₀ where

variable [Facts]
-- ==== Proof.LapReal.lean ====
/-
  The Laplacian of a scalar network x ↦ W3 · tanh (W2 · tanh (W1 · x + b1) + b2) on ℝ³, written over the real numbers
  in the two arrangements the two programs use.

  Both propagate second-order Taylor coefficients ("jets") through the layers.  A linear layer maps each coefficient
  linearly (the bias enters the value only); tanh maps (c0, c1, c2) to
  (tanh c0, s · c1, s · c2 − 2 · tanh c0 · s · c1²) with s = 1 − tanh² c0.

  * The direction-by-direction arrangement (`r…`) carries, for each coordinate direction d, the jet of the curve
    t ↦ x + t · e_d (first coefficient the unit vector e_d, second coefficient zero) through every layer, and adds the
    three second coefficients of the output at the end.
  * The summed arrangement (`k…`) uses that the second coefficients enter every later layer linearly: it carries the
    SUM over d of the second coefficients, and per direction only the first coefficients, whose squares it adds up.
    After the first layer the first coefficient in direction d is the column d of W1, so the sum of their squares is the
    row-wise sum of squares of W1 (`krs`).

  The definitions keep the order of the factors and summands each program uses, so that reading a program's value as one
  of these numbers needs no algebra.
-/
import Mathlib.Analysis.Complex.Trigonometric
import Mathlib.Algebra.BigOperators.Fin

noncomputable section

open scoped BigOperators

namespace LapReal

/-- The weights of the network: 3 → H1 → H2 → 1. -/
structure Net (H1 H2 : ℕ) where
  W1 : Fin H1 → Fin 3 → ℝ
  b1 : Fin H1 → ℝ
  W2 : Fin H2 → Fin H1 → ℝ
  b2 : Fin H2 → ℝ
  W3 : Fin H2 → ℝ

variable {H1 H2 : ℕ} (N : Net H1 H2) (x : Fin 3 → ℝ)

/-! ## Direction by direction -/

/-- Entry i of the unit vector e_d. -/
def delta (d i : Fin 3) : ℝ := if d = i then 1 else 0

/-- First layer, value. -/
def rh (o : Fin H1) : ℝ := (∑ i, x i * N.W1 o i) + N.b1 o
/-- First layer, first coefficient in direction d. -/
def re1 (d : Fin 3) (o : Fin H1) : ℝ := ∑ i, delta d i * N.W1 o i
/-- First layer, second coefficient (of the zero vector). -/
def re2 (o : Fin H1) : ℝ := ∑ i : Fin 3, (0 : ℝ) * N.W1 o i
def ra (o : Fin H1) : ℝ := Real.tanh (rh N x o)
def rs (o : Fin H1) : ℝ := 1 - ra N x o * ra N x o
def rz1 (d : Fin 3) (o : Fin H1) : ℝ := rs N x o * re1 N d o
def rz2 (d : Fin 3) (o : Fin H1) : ℝ :=
  rs N x o * re2 N o - ((2 * ra N x o) * rs N x o) * (re1 N d o * re1 N d o)
def ru0 (p : Fin H2) : ℝ := (∑ o, ra N x o * N.W2 p o) + N.b2 p
def ru1 (d : Fin 3) (p : Fin H2) : ℝ := ∑ o, rz1 N x d o * N.W2 p o
def ru2 (d : Fin 3) (p : Fin H2) : ℝ := ∑ o, rz2 N x d o * N.W2 p o
def ra2 (p : Fin H2) : ℝ := Real.tanh (ru0 N x p)
def rs2 (p : Fin H2) : ℝ := 1 - ra2 N x p * ra2 N x p
def rv2 (d : Fin 3) (p : Fin H2) : ℝ :=
  rs2 N x p * ru2 N x d p - ((2 * ra2 N x p) * rs2 N x p) * (ru1 N x d p * ru1 N x d p)
/-- Output layer, second coefficient in direction d. -/
def rF (d : Fin 3) : ℝ := ∑ p, rv2 N x d p * N.W3 p
/-- The Laplacian, direction by direction. -/
def rout : ℝ := 0 + ∑ d : Fin 3, rF N x d

/-! ## Summed over the directions -/

def kh (o : Fin H1) : ℝ := (∑ i, N.W1 o i * x i) + N.b1 o
def ka (o : Fin H1) : ℝ := Real.tanh (kh N x o)
def ks (o : Fin H1) : ℝ := 1 - ka N x o * ka N x o
/-- Row o of W1: the sum of its squares. -/
def krs (o : Fin H1) : ℝ := 0 + ∑ d : Fin 3, N.W1 o d * N.W1 o d
/-- After the first tanh: the sum over the directions of the second coefficients. -/
def kc (o : Fin H1) : ℝ := (((-2 : ℝ) * ka N x o) * ks N x o) * krs N o
def ky22 (p : Fin H2) : ℝ := ∑ o, N.W2 p o * kc N x o
def ka2 (p : Fin H2) : ℝ := Real.tanh ((∑ o, N.W2 p o * ka N x o) + N.b2 p)
def ks2 (p : Fin H2) : ℝ := 1 - ka2 N x p * ka2 N x p
/-- Second layer, first coefficient in direction d. -/
def ky1 (d : Fin 3) (p : Fin H2) : ℝ := ∑ o, N.W2 p o * (ks N x o * N.W1 o d)
def kssq (p : Fin H2) : ℝ :=
  ((0 + ky1 N x 0 p * ky1 N x 0 p) + ky1 N x 1 p * ky1 N x 1 p) + ky1 N x 2 p * ky1 N x 2 p
def kc3 (p : Fin H2) : ℝ := ks2 N x p * ky22 N x p - ((2 * ka2 N x p) * ks2 N x p) * kssq N x p
/-- The Laplacian, summed arrangement. -/
def kout : ℝ := ∑ p, N.W3 p * kc3 N x p

end LapReal

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«181536_j17351667876341_2_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Consts.lean ====
/-
  The float literals the two programs spell, as the real numbers their words denote on the extended reals: the words of
  0.0, 1.0, 2.0 and -2.0.  Each is an exact dyadic number, so nothing is rounded.
-/
import Idealize.ShloMosaic.PureOps.Ideal
import Idealize.ShloMosaic.PureOps.Ideal.Laws

noncomputable section

namespace Cert.Lits

open Idealize.ShloMosaic

theorem zero : Ideal.ofBits .f32 0x00000000#32 = ((0 : ℝ) : EReal) := by
  rw [Ideal.ofBits_zero_f32, EReal.coe_zero]

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem negTwo : Ideal.ofBits .f32 0xC0000000#32 = ((-2 : ℝ) : EReal) := by
  simp [Ideal.ofBits, Ideal.ieee, -EReal.coe_mul]; norm_num

end Cert.Lits

end
-- ==== Proof.KerPay.lean ====
/-
  The kernel body's arithmetic, read entry by entry as real numbers.

  The body computes on a block of 4096 points at once, batch along the columns: with x the 3 × 4096 block of coordinates,
  every intermediate is a (features × 4096) array whose column q belongs to the point whose coordinates are column q of
  x.  The matrix unit's products onto a zero accumulator are plain sums over the contracted axis, a 128 × 1 (or 64 × 1)
  column broadcast along the columns reads its one entry in the row, and tanh, products, sums and differences act entry
  by entry.  So when every loaded entry is a real number, each named intermediate at (row, q) is the real number the
  summed arrangement of the Laplacian (`LapReal.k…`) assigns to that row at the point "column q of x", and the stored
  row at column q is `LapReal.kout` at that point.  The three first-layer directions are the three columns of W1, cut
  out of the loaded 128 × 3 block as 128 × 1 slices.
-/
import proofs.«181536_j17351667876341_2_alg».proof.Proof.Gen.KernelIdeal.Skeleton
import proofs.«181536_j17351667876341_2_alg».proof.Proof.LapReal
import proofs.«181536_j17351667876341_2_alg».proof.Proof.LibProdRows
import proofs.«181536_j17351667876341_2_alg».proof.Proof.LibRowCol
import proofs.«181536_j17351667876341_2_alg».proof.Proof.LibRealSums
import proofs.«181536_j17351667876341_2_alg».proof.Proof.LibDot2
import proofs.«181536_j17351667876341_2_alg».proof.Proof.Consts
import Idealize.ShloMosaic.Lib.ValueIdx
import Idealize.ShloMosaic.Lib.Pipeline.Value
import Idealize.ShloMosaic.PureOps.Ideal.Laws

noncomputable section

open scoped BigOperators

namespace Cert.KernelIdeal.KerPay

open Cert.KernelIdeal Cert.KernelIdeal.Gen Idealize.ShloMosaic Idealize.ShloMosaic.ValueIdx

theorem plain1 : MatProd.Plain dot_S128x3_S3x4096_S128x4096_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩
theorem plain2 : MatProd.Plain dot_S64x128_S128x4096_S64x4096_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩
theorem plain3 : MatProd.Plain dot_S1x64_S64x4096_S1x4096_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

theorem mm1 (a : FVec Ideal S128x3 .f32) (b : FVec Ideal S3x4096 .f32) :
    matmul dot_S128x3_S3x4096_S128x4096_1_0_0_1_n_n none a b (constant S128x4096 .f32 0x00000000#32) = MatProd.mm a b :=
  MatProd.matmul_zero_mm plain1 none a b
theorem mm2 (a : FVec Ideal S64x128 .f32) (b : FVec Ideal S128x4096 .f32) :
    matmul dot_S64x128_S128x4096_S64x4096_1_0_0_1_n_n none a b (constant S64x4096 .f32 0x00000000#32) = MatProd.mm a b :=
  MatProd.matmul_zero_mm plain2 none a b
theorem mm3 (a : FVec Ideal S1x64 .f32) (b : FVec Ideal S64x4096 .f32) :
    matmul dot_S1x64_S64x4096_S1x4096_1_0_0_1_n_n none a b (constant S1x4096 .f32 0x00000000#32) = MatProd.mm a b :=
  MatProd.matmul_zero_mm plain3 none a b

section
variable (x0 : FVec Ideal S3x4096 .f32) (x1 : FVec Ideal S128x3 .f32) (x2 : FVec Ideal S128x1 .f32)
  (x3 : FVec Ideal S64x128 .f32) (x4 : FVec Ideal S64x1 .f32) (x5 : FVec Ideal S1x64 .f32) (x6 : FVec Ideal S128x1 .f32)
  (xb : Fin 4096 → Fin 3 → ℝ) (N : LapReal.Net 128 64)
  (h0 : ∀ (i : Fin 3) (q : Fin 4096), x0 (ix2 i q) = ((xb q i : ℝ) : EReal))
  (h1 : ∀ (o : Fin 128) (i : Fin 3), x1 (ix2 o i) = ((N.W1 o i : ℝ) : EReal))
  (h2 : ∀ (o : Fin 128) (u : Fin 1), x2 (ix2 o u) = ((N.b1 o : ℝ) : EReal))
  (h3 : ∀ (p : Fin 64) (o : Fin 128), x3 (ix2 p o) = ((N.W2 p o : ℝ) : EReal))
  (h4 : ∀ (p : Fin 64) (u : Fin 1), x4 (ix2 p u) = ((N.b2 p : ℝ) : EReal))
  (h5 : ∀ (u : Fin 1) (p : Fin 64), x5 (ix2 u p) = ((N.W3 p : ℝ) : EReal))
  (h6 : ∀ (o : Fin 128) (u : Fin 1), x6 (ix2 o u) = ((LapReal.krs N o : ℝ) : EReal))

include h0 h1 h2 in
theorem pay2_real (o : Fin 128) (q : Fin 4096) :
    k0_pay2 (F := Ideal) x0 x1 x2 (ix2 o q) = ((LapReal.ka N (xb q) o : ℝ) : EReal) := by
  unfold k0_pay2
  simp only [shapeCast_self]
  change Ideal.tanh (_ + _) = _
  rw [mm1, MatProd.mm_ix2, RowCol.broadcastTo_a1_ab_apply]
  unfold MatProd.entry
  simp only [h0, h1, h2, ← EReal.coe_mul, ← RealSums.coe_sum_real, ← EReal.coe_add, Ideal.tanh_coe]
  rfl

include h0 h1 h2 in
theorem pay3_real (o : Fin 128) (q : Fin 4096) :
    k0_pay3 (F := Ideal) x0 x1 x2 (ix2 o q) = ((LapReal.ks N (xb q) o : ℝ) : EReal) := by
  unfold k0_pay3
  change Ideal.ofBits .f32 0x3F800000#32 - k0_pay2 (F := Ideal) x0 x1 x2 (ix2 o q) * k0_pay2 (F := Ideal) x0 x1 x2 (ix2 o q) = _
  rw [pay2_real x0 x1 x2 xb N h0 h1 h2, Cert.Lits.one, ← EReal.coe_mul, ← EReal.coe_sub]
  rfl

include h0 h1 h2 h3 h6 in
theorem pay4_real (p : Fin 64) (q : Fin 4096) :
    k0_pay4 (F := Ideal) x0 x1 x2 x3 x6 (ix2 p q) = ((LapReal.ky22 N (xb q) p : ℝ) : EReal) := by
  unfold k0_pay4
  simp only [shapeCast_self]
  rw [mm2, MatProd.mm_ix2]
  unfold MatProd.entry LapReal.ky22
  rw [RealSums.coe_sum_real]
  refine Finset.sum_congr rfl fun o _ => ?_
  change x3 (ix2 p o) * (((Ideal.ofBits .f32 0xC0000000#32 * k0_pay2 (F := Ideal) x0 x1 x2 (ix2 o q)) * k0_pay3 (F := Ideal) x0 x1 x2 (ix2 o q))
    * broadcastTo S128x4096 x6 broadcasts_S128x1_S128x4096 (ix2 o q)) = _
  rw [h3, pay2_real x0 x1 x2 xb N h0 h1 h2, pay3_real x0 x1 x2 xb N h0 h1 h2, RowCol.broadcastTo_a1_ab_apply, h6,
    Cert.Lits.negTwo]
  simp only [← EReal.coe_mul]
  rfl

include h0 h1 h2 h3 h4 in
theorem pay5_real (p : Fin 64) (q : Fin 4096) :
    k0_pay5 (F := Ideal) x0 x1 x2 x3 x4 (ix2 p q) = ((LapReal.ka2 N (xb q) p : ℝ) : EReal) := by
  unfold k0_pay5
  simp only [shapeCast_self]
  change Ideal.tanh (_ + _) = _
  rw [mm2, MatProd.mm_ix2, RowCol.broadcastTo_a1_ab_apply, h4]
  unfold MatProd.entry
  simp only [h3, pay2_real x0 x1 x2 xb N h0 h1 h2, ← EReal.coe_mul, ← RealSums.coe_sum_real, ← EReal.coe_add,
    Ideal.tanh_coe]
  rfl

include h0 h1 h2 h3 h4 in
theorem pay6_real (p : Fin 64) (q : Fin 4096) :
    k0_pay6 (F := Ideal) x0 x1 x2 x3 x4 (ix2 p q) = ((LapReal.ks2 N (xb q) p : ℝ) : EReal) := by
  unfold k0_pay6
  change Ideal.ofBits .f32 0x3F800000#32 - k0_pay5 (F := Ideal) x0 x1 x2 x3 x4 (ix2 p q) * k0_pay5 (F := Ideal) x0 x1 x2 x3 x4 (ix2 p q) = _
  rw [pay5_real x0 x1 x2 x3 x4 xb N h0 h1 h2 h3 h4, Cert.Lits.one, ← EReal.coe_mul, ← EReal.coe_sub]
  rfl

theorem pay7_real (p : Fin 64) (q : Fin 4096) : k0_pay7 (F := Ideal) (ix2 p q) = ((0 : ℝ) : EReal) := by
  unfold k0_pay7
  exact Cert.Lits.zero

/-- Column `d` of a 128 × 3 array, cut out as a 128 × 1 array. -/
theorem slice_col (off : Fin S128x3.rank → Nat) (hsl : S128x3.Slices off S128x1) (d : Fin 3) (ho0 : off 0 = 0)
    (ho1 : off 1 = d.val) (x : S128x3.Idx → EReal) (o : Fin 128) (u : Fin 1) :
    extractStridedSlice S128x1 off x hsl (ix2 o u) = x (ix2 o d) :=
  extractStridedSlice_apply off x hsl _ (ix2 o d) (fun a => by
    have hu : u.val = 0 := by omega
    match a with
    | ⟨0, _⟩ => show o.val = off 0 + o.val; omega
    | ⟨1, _⟩ => show d.val = off 1 + u.val; omega)

include h0 h1 h2 h3 in
/-- The second layer's first coefficient in direction `d`. -/
theorem y1_real (off : Fin S128x3.rank → Nat) (hsl : S128x3.Slices off S128x1) (d : Fin 3) (ho0 : off 0 = 0)
    (ho1 : off 1 = d.val) (p : Fin 64) (q : Fin 4096) :
    matmul dot_S64x128_S128x4096_S64x4096_1_0_0_1_n_n none x3
        (mulf (k0_pay3 (F := Ideal) x0 x1 x2) (broadcastTo S128x4096 (extractStridedSlice S128x1 off x1 hsl) broadcasts_S128x1_S128x4096))
        (constant S64x4096 .f32 0x00000000#32) (ix2 p q)
      = ((LapReal.ky1 N (xb q) d p : ℝ) : EReal) := by
  rw [mm2, MatProd.mm_ix2]
  unfold MatProd.entry LapReal.ky1
  rw [RealSums.coe_sum_real]
  refine Finset.sum_congr rfl fun o _ => ?_
  change x3 (ix2 p o) * (k0_pay3 (F := Ideal) x0 x1 x2 (ix2 o q)
    * broadcastTo S128x4096 (extractStridedSlice S128x1 off x1 hsl) broadcasts_S128x1_S128x4096 (ix2 o q)) = _
  rw [h3, pay3_real x0 x1 x2 xb N h0 h1 h2, RowCol.broadcastTo_a1_ab_apply, slice_col off hsl d ho0 ho1, h1,
    ← EReal.coe_mul, ← EReal.coe_mul]

include h0 h1 h2 h3 in
theorem pay8_real (p : Fin 64) (q : Fin 4096) :
    k0_pay8 (F := Ideal) x0 x1 x2 x3 (ix2 p q) = ((LapReal.ky1 N (xb q) 0 p * LapReal.ky1 N (xb q) 0 p : ℝ) : EReal) := by
  unfold k0_pay8
  change (matmul dot_S64x128_S128x4096_S64x4096_1_0_0_1_n_n none x3 _ _ (ix2 p q))
    * (matmul dot_S64x128_S128x4096_S64x4096_1_0_0_1_n_n none x3 _ _ (ix2 p q)) = _
  rw [y1_real x0 x1 x2 x3 xb N h0 h1 h2 h3 _ _ 0 rfl rfl, ← EReal.coe_mul]

include h0 h1 h2 h3 h4 h5 h6 in
/-- The stored row: at column `q` the Laplacian at the point whose coordinates are column `q` of the input block. -/
theorem pay1_real (u : Fin 1) (q : Fin 4096) :
    k0_pay1 (F := Ideal) x1 x3 x5 (k0_pay3 (F := Ideal) x0 x1 x2) (k0_pay4 (F := Ideal) x0 x1 x2 x3 x6) (k0_pay5 (F := Ideal) x0 x1 x2 x3 x4) (k0_pay6 (F := Ideal) x0 x1 x2 x3 x4)
        (k0_pay7 (F := Ideal)) (k0_pay8 (F := Ideal) x0 x1 x2 x3) (ix2 u q)
      = ((LapReal.kout N (xb q) : ℝ) : EReal) := by
  unfold k0_pay1
  rw [mm3, MatProd.mm_ix2]
  unfold MatProd.entry LapReal.kout
  rw [RealSums.coe_sum_real]
  refine Finset.sum_congr rfl fun p _ => ?_
  change x5 (ix2 u p) * (k0_pay6 (F := Ideal) x0 x1 x2 x3 x4 (ix2 p q) * k0_pay4 (F := Ideal) x0 x1 x2 x3 x6 (ix2 p q)
    - ((Ideal.ofBits .f32 0x40000000#32 * k0_pay5 (F := Ideal) x0 x1 x2 x3 x4 (ix2 p q)) * k0_pay6 (F := Ideal) x0 x1 x2 x3 x4 (ix2 p q))
      * (((k0_pay7 (F := Ideal) (ix2 p q) + k0_pay8 (F := Ideal) x0 x1 x2 x3 (ix2 p q))
          + (matmul dot_S64x128_S128x4096_S64x4096_1_0_0_1_n_n none x3 _ _ (ix2 p q))
            * (matmul dot_S64x128_S128x4096_S64x4096_1_0_0_1_n_n none x3 _ _ (ix2 p q)))
          + (matmul dot_S64x128_S128x4096_S64x4096_1_0_0_1_n_n none x3 _ _ (ix2 p q))
            * (matmul dot_S64x128_S128x4096_S64x4096_1_0_0_1_n_n none x3 _ _ (ix2 p q)))) = _
  rw [h5, pay6_real x0 x1 x2 x3 x4 xb N h0 h1 h2 h3 h4, pay4_real x0 x1 x2 x3 x6 xb N h0 h1 h2 h3 h6,
    pay5_real x0 x1 x2 x3 x4 xb N h0 h1 h2 h3 h4, pay7_real, pay8_real x0 x1 x2 x3 xb N h0 h1 h2 h3,
    y1_real x0 x1 x2 x3 xb N h0 h1 h2 h3 _ _ 1 rfl rfl, y1_real x0 x1 x2 x3 xb N h0 h1 h2 h3 _ _ 2 rfl rfl,
    Cert.Lits.two]
  simp only [← EReal.coe_mul, ← EReal.coe_add, ← EReal.coe_sub]
  rfl

end

end Cert.KernelIdeal.KerPay

end
-- ==== Proof.KerBlocks.lean ====
/-
  From the kernel's blocks to its result row.

  The launch has 32 grid points.  Grid point t is given columns 4096·t … 4096·t + 4095 of the 3 × 131072 array of
  coordinates (the transposed input, written by the host before the launch), the whole of W1, of the bias columns (the
  bias vectors reshaped to one column), of W2, of W3 and of the column of row-wise sums of squares of W1 (computed by the
  host: product entry by entry, sum along each row, kept as one column), and writes columns 4096·t … 4096·t + 4095 of the
  1 × 131072 result row.  Read through its rectangle, each input block's entry is an entry of an argument array; so, when
  the argument arrays hold real numbers, the block grid point t writes back is block t of ONE row `G`: at column n the
  Laplacian (summed arrangement) at point n.  Every column n lies in the block of grid point n / 4096, so the blocks cover
  the row.
-/
import proofs.«181536_j17351667876341_2_alg».proof.Proof.Gen.KernelIdeal.Frame
import proofs.«181536_j17351667876341_2_alg».proof.Proof.KerPay
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KerBlocks

open Cert.KernelIdeal Cert.KernelIdeal.Gen Idealize.ShloMosaic.ValueIdx

variable (m : (ℓ : Loc nD τ sig) → Buf (Elt Ideal) ℓ) (ρ : Dev nD → PrngReg)

theorem V_v0 (c : Dev nD) : (V m c main_v0 : S3x131072.Idx → EReal)
    = transpose S3x131072 [1, 0] (m ((c : Thread nD τ).loc main_arg0)) transposes_S131072x3_S3x131072_1_0 := by
  show StableHlo.after hostOps0 (fun b => m (c, b)) (Proc.devRef .tc main_v0) = _
  after_results
theorem V_v1 (c : Dev nD) : (V m c main_v1 : S128x1.Idx → EReal)
    = shapeCast S128x1 (m ((c : Thread nD τ).loc main_arg2)) shapeCasts_S128_S128x1 := by
  show StableHlo.after hostOps0 (fun b => m (c, b)) (Proc.devRef .tc main_v1) = _
  after_results
  rfl
theorem V_v2 (c : Dev nD) : (V m c main_v2 : S64x1.Idx → EReal)
    = shapeCast S64x1 (m ((c : Thread nD τ).loc main_arg4)) shapeCasts_S64_S64x1 := by
  show StableHlo.after hostOps0 (fun b => m (c, b)) (Proc.devRef .tc main_v2) = _
  after_results
  rfl
theorem V_v5 (c : Dev nD) : (V m c main_v5 : S128x1.Idx → EReal)
    = broadcastInDim S128x1 ![0] bcast_S128_S128x1_0
        (Host.reduceAdd (mulf (m ((c : Thread nD τ).loc main_arg1)) (m ((c : Thread nD τ).loc main_arg1)))
          (constant (F := Ideal) S_ .f32 0x00000000#32) reducesTo_S128x3_S128_d1 h_S_) := by
  show StableHlo.after hostOps0 (fun b => m (c, b)) (Proc.devRef .tc main_v5) = _
  after_results

theorem lt32 (t : Fin cfg0.N) : t.val < 32 := lt_of_lt_of_eq t.isLt N_0

/-- The number, among all 131072 points, of point `q` of block `t`. -/
def pt (t : Fin cfg0.N) (q : Fin 4096) : Fin 131072 := ⟨t.val * 4096 + q.val, by have := lt32 t; omega⟩

/-- The printed index maps over the grid: the block of coordinates and the block of results move with the grid point
    along the batch axis; every other window stays at its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

theorem iblk0_apply (c : Dev nD) (t : Fin cfg0.N) (i : Fin 3) (q : Fin 4096) :
    (iblk m c 0 t : FVec Ideal S3x4096 .f32) (ix2 i q)
      = (m ((c : Thread nD τ).loc main_arg0) : S131072x3.Idx → EReal) (ix2 (pt t q) i) := by
  obtain ⟨e0, e1, -⟩ := idx_facts t
  unfold iblk
  rw [View.read_apply]
  show V m c main_v0 _ = _
  rw [V_v0]
  refine transpose_apply _ _ _ _ (ix2 (pt t q) i) (fun b => ?_)
  match b with
  | ⟨0, _⟩ => show i.val = win0_0.index t 0 * 3 + 1 * i.val; rw [e0]; omega
  | ⟨1, _⟩ => show t.val * 4096 + q.val = win0_0.index t 1 * 4096 + 1 * q.val; rw [e1]; omega

theorem iblk1_apply (c : Dev nD) (t : Fin cfg0.N) (o : Fin 128) (i : Fin 3) :
    (iblk m c 1 t : FVec Ideal S128x3 .f32) (ix2 o i)
      = (m ((c : Thread nD τ).loc main_arg1) : S128x3.Idx → EReal) (ix2 o i) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t 0 * 128 + 1 * o.val = o.val; rw [e0]; omega
  | ⟨1, _⟩ => show win0_1.index t 1 * 3 + 1 * i.val = i.val; rw [e1]; omega

theorem iblk2_apply (c : Dev nD) (t : Fin cfg0.N) (o : Fin 128) (u : Fin 1) :
    (iblk m c 2 t : FVec Ideal S128x1 .f32) (ix2 o u)
      = (m ((c : Thread nD τ).loc main_arg2) : S128.Idx → EReal) (ix1 o) := by
  obtain ⟨-, -, -, -, e0, e1, -⟩ := idx_facts t
  unfold iblk
  rw [View.read_apply]
  show V m c main_v1 _ = _
  rw [V_v1]
  refine (congrArg _ (funext fun a => Fin.ext ?_)).trans (RowCol.shapeCast_a_a1_apply _ _ o u)
  match a with
  | ⟨0, _⟩ => show win0_2.index t 0 * 128 + 1 * o.val = o.val; rw [e0]; omega
  | ⟨1, _⟩ => show win0_2.index t 1 * 1 + 1 * u.val = u.val; rw [e1]; omega

theorem iblk3_apply (c : Dev nD) (t : Fin cfg0.N) (p : Fin 64) (o : Fin 128) :
    (iblk m c 3 t : FVec Ideal S64x128 .f32) (ix2 p o)
      = (m ((c : Thread nD τ).loc main_arg3) : S64x128.Idx → EReal) (ix2 p o) := by
  obtain ⟨-, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t 0 * 64 + 1 * p.val = p.val; rw [e0]; omega
  | ⟨1, _⟩ => show win0_3.index t 1 * 128 + 1 * o.val = o.val; rw [e1]; omega

theorem iblk4_apply (c : Dev nD) (t : Fin cfg0.N) (p : Fin 64) (u : Fin 1) :
    (iblk m c 4 t : FVec Ideal S64x1 .f32) (ix2 p u)
      = (m ((c : Thread nD τ).loc main_arg4) : S64.Idx → EReal) (ix1 p) := by
  obtain ⟨-, -, -, -, -, -, -, -, e0, e1, -⟩ := idx_facts t
  unfold iblk
  rw [View.read_apply]
  show V m c main_v2 _ = _
  rw [V_v2]
  refine (congrArg _ (funext fun a => Fin.ext ?_)).trans (RowCol.shapeCast_a_a1_apply _ _ p u)
  match a with
  | ⟨0, _⟩ => show win0_4.index t 0 * 64 + 1 * p.val = p.val; rw [e0]; omega
  | ⟨1, _⟩ => show win0_4.index t 1 * 1 + 1 * u.val = u.val; rw [e1]; omega

theorem iblk5_apply (c : Dev nD) (t : Fin cfg0.N) (u : Fin 1) (p : Fin 64) :
    (iblk m c 5 t : FVec Ideal S1x64 .f32) (ix2 u p)
      = (m ((c : Thread nD τ).loc main_arg5) : S1x64.Idx → EReal) (ix2 u p) := by
  obtain ⟨-, -, -, -, -, -, -, -, -, -, e0, e1, -⟩ := idx_facts t
  unfold iblk
  rw [View.read_apply]
  show V m c main_arg5 _ = _
  rw [V_main_arg5]
  refine congrArg _ (funext fun a => Fin.ext ?_)
  match a with
  | ⟨0, _⟩ => show win0_5.index t 0 * 1 + 1 * u.val = u.val; rw [e0]; omega
  | ⟨1, _⟩ => show win0_5.index t 1 * 64 + 1 * p.val = p.val; rw [e1]; omega

/-- The row-wise sums of squares of a 128 × 3 array of real entries, kept as a 128 × 1 column: the host computes them
    before the kernel runs (product entry by entry, sum along the row from the zero word, one-column broadcast). -/
theorem rowsq_apply (A : FVec Ideal S128x3 .f32) (w1r : Fin 128 → Fin 3 → ℝ)
    (hA : ∀ (o : Fin 128) (i : Fin 3), A (ix2 o i) = ((w1r o i : ℝ) : EReal)) (o : Fin 128) (j : S128x1.Idx)
    (hj : (j 0).val = o.val) :
    broadcastInDim S128x1 ![0] bcast_S128_S128x1_0
        (Host.reduceAdd (mulf A A) (constant (F := Ideal) S_ .f32 0x00000000#32) reducesTo_S128x3_S128_d1 h_S_) j
      = ((0 + ∑ d : Fin 3, w1r o d * w1r o d : ℝ) : EReal) := by
  refine (broadcastInDim_apply _ bcast_S128_S128x1_0 _ j (ix1 o) (fun a => ?_)).trans ?_
  · match a with
    | ⟨0, _⟩ =>
      show o.val = if (128 : Nat) = 1 then 0 else (j 0).val
      rw [if_neg (by decide), hj]
  · simp only [Host.reduceAdd, Ideal.hostReduceAdd_def]
    rw [Ideal.hostReduceAdd_single reducesTo_S128x3_S128_d1 (by decide), EReal.coe_add, RealSums.coe_sum_real]
    refine congrArg₂ (· + ·) Cert.Lits.zero (Finset.sum_congr rfl fun (d : Fin 3) _ => ?_)
    have e : (by decide : S128x3.Reduces [1] S128).lift (ix1 o) d = ix2 o d :=
      funext fun a => Fin.ext (by match a with | ⟨0, _⟩ => rfl | ⟨1, _⟩ => rfl)
    show A _ * A _ = _
    rw [e, hA, ← EReal.coe_mul]

theorem iblk6_apply (c : Dev nD) (t : Fin cfg0.N) (o : Fin 128) (u : Fin 1) (w1r : Fin 128 → Fin 3 → ℝ)
    (hW1 : ∀ (o : Fin 128) (i : Fin 3),
      (m ((c : Thread nD τ).loc main_arg1) : S128x3.Idx → EReal) (ix2 o i) = ((w1r o i : ℝ) : EReal)) :
    (iblk m c 6 t : FVec Ideal S128x1 .f32) (ix2 o u)
      = ((0 + ∑ d : Fin 3, w1r o d * w1r o d : ℝ) : EReal) := by
  obtain ⟨-, -, -, -, -, -, -, -, -, -, -, -, e0, e1, -⟩ := idx_facts t
  unfold iblk
  rw [View.read_apply]
  show V m c main_v5 _ = _
  rw [V_v5]
  refine rowsq_apply _ w1r hW1 o _ ?_
  show win0_6.index t 0 * 128 + 1 * o.val = o.val
  rw [e0]; omega

section
variable (xr : Fin 131072 → Fin 3 → ℝ) (N : LapReal.Net 128 64) (c : Dev nD)
  (hX : ∀ (n : Fin 131072) (i : Fin 3),
    (m ((c : Thread nD τ).loc main_arg0) : S131072x3.Idx → EReal) (ix2 n i) = ((xr n i : ℝ) : EReal))
  (hW1 : ∀ (o : Fin 128) (i : Fin 3),
    (m ((c : Thread nD τ).loc main_arg1) : S128x3.Idx → EReal) (ix2 o i) = ((N.W1 o i : ℝ) : EReal))
  (hB1 : ∀ o : Fin 128, (m ((c : Thread nD τ).loc main_arg2) : S128.Idx → EReal) (ix1 o) = ((N.b1 o : ℝ) : EReal))
  (hW2 : ∀ (p : Fin 64) (o : Fin 128),
    (m ((c : Thread nD τ).loc main_arg3) : S64x128.Idx → EReal) (ix2 p o) = ((N.W2 p o : ℝ) : EReal))
  (hB2 : ∀ p : Fin 64, (m ((c : Thread nD τ).loc main_arg4) : S64.Idx → EReal) (ix1 p) = ((N.b2 p : ℝ) : EReal))
  (hW3 : ∀ (u : Fin 1) (p : Fin 64),
    (m ((c : Thread nD τ).loc main_arg5) : S1x64.Idx → EReal) (ix2 u p) = ((N.W3 p : ℝ) : EReal))

/-- The row of results: at column `n` the Laplacian at point `n`. -/
def G : S1x131072.Idx → EReal := fun j => ((LapReal.kout N (xr ⟨(j 1).val, (j 1).isLt⟩) : ℝ) : EReal)

theorem hz : (![0, 0] : Fin 2 → Nat) = fun _ => 0 := funext fun a => by fin_cases a <;> rfl

include hX hW1 hB1 hW2 hB2 hW3 in
theorem flushed_eq (t : Fin cfg0.N) :
    (dats m 0 c).flushed 7 t = ((cfg0.win 7).blk t).view.read (Elt Ideal) (G xr N) := by
  show (cfg0.win 7).cut (grid0.coords t) ((dats m 0 c).after 7 t) = _
  rw [after0_7]
  unfold out0_7
  rw [View.canon_unit_zero hz]
  simp only [View.ld_unit_zero (S := S3x4096) hz, View.ld_unit_zero (S := S128x3) hz, View.ld_unit_zero (S := S128x1) hz,
    View.ld_unit_zero (S := S64x128) hz, View.ld_unit_zero (S := S64x1) hz, View.ld_unit_zero (S := S1x64) hz]
  funext y
  obtain ⟨u, q, rfl⟩ : ∃ (u : Fin 1) (q : Fin 4096), y = ix2 u q := ⟨y 0, y 1, eq_ix2 y⟩
  obtain ⟨-, -, -, -, -, -, -, -, -, -, -, -, -, -, e0, e1⟩ := idx_facts t
  refine (KerPay.pay1_real (iblk m c 0 t) (iblk m c 1 t) (iblk m c 2 t) (iblk m c 3 t) (iblk m c 4 t) (iblk m c 5 t)
    (iblk m c 6 t) (fun q i => xr (pt t q) i) N
    (fun i q => (iblk0_apply m c t i q).trans (hX (pt t q) i))
    (fun o i => (iblk1_apply m c t o i).trans (hW1 o i))
    (fun o u => (iblk2_apply m c t o u).trans (hB1 o))
    (fun p o => (iblk3_apply m c t p o).trans (hW2 p o))
    (fun p u => (iblk4_apply m c t p u).trans (hB2 p))
    (fun u p => (iblk5_apply m c t u p).trans (hW3 u p))
    (fun o u => iblk6_apply m c t o u N.W1 hW1) u q).trans ?_
  show _ = G xr N (((cfg0.win 7).blk t).view.emb (ix2 u q))
  have e : (⟨((((cfg0.win 7).blk t).view.emb (ix2 u q)) 1).val, ((((cfg0.win 7).blk t).view.emb (ix2 u q)) 1).isLt⟩ : Fin 131072)
      = pt t q :=
    Fin.ext (by show win0_7.index t 1 * 4096 + 1 * q.val = t.val * 4096 + q.val; rw [e1]; omega)
  exact congrArg (fun n => ((LapReal.kout N (xr n) : ℝ) : EReal)) e.symm

end

section
variable (xr : Fin 131072 → Fin 3 → ℝ) (N : LapReal.Net 128 64) (c : Dev nD)

/-- An index of the result row lies in point `t`'s block iff each coordinate is in the block's range. -/
theorem mem_blk (t : Fin cfg0.N) (i : S1x131072.Idx) :
    i ∈ ((cfg0.win 7).blk t).view.set ↔ ∀ a : Fin 2, win0_7.index t a * S1x4096.size a ≤ (i a).val
      ∧ (i a).val < win0_7.index t a * S1x4096.size a + S1x4096.size a := by
  show i ∈ ((View.whole main_v6).slice (win0_7.rect t)).set ↔ _
  rw [View.set_slice_whole, Rect.mem_set_unit]
  exact Iff.rfl

/-- Column `n` of the result row is written by grid point `n / 4096`. -/
theorem cover (i : S1x131072.Idx) :
    ∃ t : Fin cfg0.N, (cfg0.win 7).flush t = true ∧ i ∈ ((cfg0.win 7).blk t).view.set := by
  have hi0 : (i 0).val < 1 := (i 0).isLt
  have hi1 : (i 1).val < 131072 := (i 1).isLt
  have ht : (i 1).val / 4096 < cfg0.N := by rw [show cfg0.N = 32 from N_0]; omega
  obtain ⟨-, -, -, -, -, -, -, -, -, -, -, -, -, -, e0, e1⟩ := idx_facts ⟨(i 1).val / 4096, ht⟩
  refine ⟨⟨(i 1).val / 4096, ht⟩, flush0_7 _, ?_⟩
  rw [mem_blk]
  intro a
  match a with
  | ⟨0, _⟩ =>
    show win0_7.index ⟨(i 1).val / 4096, ht⟩ 0 * 1 ≤ (i 0).val ∧ (i 0).val < win0_7.index ⟨(i 1).val / 4096, ht⟩ 0 * 1 + 1
    rw [e0]; omega
  | ⟨1, _⟩ =>
    show win0_7.index ⟨(i 1).val / 4096, ht⟩ 1 * 4096 ≤ (i 1).val
      ∧ (i 1).val < win0_7.index ⟨(i 1).val / 4096, ht⟩ 1 * 4096 + 4096
    rw [e1]; show (i 1).val / 4096 * 4096 ≤ (i 1).val ∧ (i 1).val < (i 1).val / 4096 * 4096 + 4096; omega
end

end Cert.KernelIdeal.KerBlocks

end
-- ==== Proof.KerRun.lean ====
/-
  The kernel program's result column.

  The 32 write-backs cover the 1 × 131072 result row, so after the launch it is the row `G` (column n: the Laplacian, in
  the summed arrangement, at point n).  The one host line after the launch transposes the row into the 131072 × 1 result
  column, so entry (n, 0) of the result is that number.  The program's run is then re-posted with the result column
  named and every argument array unchanged.
-/
import proofs.«181536_j17351667876341_2_alg».proof.Proof.KerBlocks

noncomputable section

open scoped BigOperators

open Idealize.ShloMosaic Idealize.ShloMosaic.TcCoe Idealize.SL.Sem
open Idealize.ShloMosaic.Pipeline (Dat)

namespace Cert.KernelIdeal.KerRun

open Cert.KernelIdeal Cert.KernelIdeal.Gen Cert.KernelIdeal.KerBlocks Idealize.ShloMosaic.ValueIdx

variable (m : (ℓ : Loc nD τ sig) → Buf (Elt Ideal) ℓ) (ρ : Dev nD → PrngReg)

section
variable (xr : Fin 131072 → Fin 3 → ℝ) (N : LapReal.Net 128 64) (c : Dev nD)
  (hX : ∀ (n : Fin 131072) (i : Fin 3),
    (m ((c : Thread nD τ).loc main_arg0) : S131072x3.Idx → EReal) (ix2 n i) = ((xr n i : ℝ) : EReal))
  (hW1 : ∀ (o : Fin 128) (i : Fin 3),
    (m ((c : Thread nD τ).loc main_arg1) : S128x3.Idx → EReal) (ix2 o i) = ((N.W1 o i : ℝ) : EReal))
  (hB1 : ∀ o : Fin 128, (m ((c : Thread nD τ).loc main_arg2) : S128.Idx → EReal) (ix1 o) = ((N.b1 o : ℝ) : EReal))
  (hW2 : ∀ (p : Fin 64) (o : Fin 128),
    (m ((c : Thread nD τ).loc main_arg3) : S64x128.Idx → EReal) (ix2 p o) = ((N.W2 p o : ℝ) : EReal))
  (hB2 : ∀ p : Fin 64, (m ((c : Thread nD τ).loc main_arg4) : S64.Idx → EReal) (ix1 p) = ((N.b2 p : ℝ) : EReal))
  (hW3 : ∀ (u : Fin 1) (p : Fin 64),
    (m ((c : Thread nD τ).loc main_arg5) : S1x64.Idx → EReal) (ix2 u p) = ((N.W3 p : ℝ) : EReal))

include hX hW1 hB1 hW2 hB2 hW3 in
/-- The result row after the launch. -/
theorem final : (dats m 0 c).arrAt 7 cfg0.N = G xr N :=
  (dats m 0 c).arrAt_eq_of_cover 7 (G xr N) (fun t _ => flushed_eq m xr N c hX hW1 hB1 hW2 hB2 hW3 t) cover

include hX hW1 hB1 hW2 hB2 hW3 in
/-- The host line after the launch transposes the row to a column: entry (n, 0) is the Laplacian at point n. -/
theorem tail_apply (i : S131072x1.Idx) :
    (Pipeline.afterTail₀ cfgs (dats m) 0 (V0 m) [hostOps1] c main_v7 : S131072x1.Idx → EReal) i
      = ((LapReal.kout N (xr ⟨(i 0).val, (i 0).isLt⟩) : ℝ) : EReal) := by
  unfold Pipeline.afterTail₀
  show StableHlo.after hostOps1 _ (Proc.devRef .tc main_v7) i = _
  after_results
  have e : Pipeline.withArrays (cfgs 0).spec c (V0 m c) (fun w => (dats m 0 c).arrAt w (cfgs 0).N) (Proc.devRef .tc main_v6)
      = G xr N :=
    (Pipeline.withArrays_arr spec0 launch0.win.arr_inj c _ _ 7).trans (final m xr N c hX hW1 hB1 hW2 hB2 hW3)
  rw [e]
  refine (transpose_apply _ _ _ i (ix2 (0 : Fin 1) ⟨(i 0).val, (i 0).isLt⟩) (fun b => ?_)).trans rfl
  match b with
  | ⟨0, _⟩ => rfl
  | ⟨1, _⟩ => show (0 : ℕ) = (i 1).val; have h1 : (i 1).val < 1 := (i 1).isLt; omega

end

/-- The frame run re-posted: the result column named, the argument arrays unchanged.  The launch leaves every array it
    does not stage as the host lines before it left it, an array it stages as an input as it found it, and the lines
    after the launch write the result column only. -/
theorem run (res : (c : Dev nD) → Buf (Elt Ideal) ((c.tc : Thread nD τ).loc main_v7))
    (hres : ∀ c, Pipeline.afterTail₀ cfgs (dats m) 0 (V0 m) [hostOps1] c main_v7 = res c) :
    θ_run defs (onTc (τ := τ) (main (F := Ideal))) ⟨m, fun _ => 0, ρ⟩ (fun r => ∀ c : Dev nD,
      r.2.mem ((c.tc : Thread nD τ).loc main_v7) = res c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v7 (Pipeline.mem_restRefs_of main_v7 (by decide) (by decide))).trans (hres c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.KerRun

end
-- ==== Proof.RefReal.lean ====
/-
  The reference program's result, read at an index, is the real number `LapReal.rout`.

  Every input entry is (the coercion of) a real number.  Stage by stage, the value each operation writes, read at a
  general index, is the coercion of the real formula of the same name in `LapReal`: a broadcast reads its operand at the
  projected index, an elementwise operation on coercions of reals is the coercion of the real operation, a contraction is
  a finite sum of products of coercions, which is the coercion of the real sum, and tanh of the coercion of a real is the
  coercion of the real tanh.  The identity matrix the program builds by comparing two counters is the Kronecker delta.
-/
import proofs.«181536_j17351667876341_2_alg».proof.Proof.Gen.ReferenceIdeal.Read
import proofs.«181536_j17351667876341_2_alg».proof.Proof.LapReal
import proofs.«181536_j17351667876341_2_alg».proof.Proof.LibRealSums
import Idealize.ShloMosaic.Lib.ValueIdx
import Idealize.ShloMosaic.PureOps.Ideal.Laws

noncomputable section

open scoped BigOperators

namespace Cert.ReferenceIdeal.RefReal

open Cert.ReferenceIdeal Idealize.ShloMosaic

/-! ## The literals -/

/-- The pattern of the f32 number one. -/
theorem ofBits_one : FloatOps.ofBits (F := Ideal) .f32 0x3F800000#32 = ((1 : ℝ) : EReal) := by
  show Ideal.ofBits .f32 0x3F800000#32 = _
  simp [Ideal.ofBits, Ideal.ieee, -EReal.coe_mul]; norm_num

/-- The pattern of the f32 number two. -/
theorem ofBits_two : FloatOps.ofBits (F := Ideal) .f32 0x40000000#32 = ((2 : ℝ) : EReal) := by
  show Ideal.ofBits .f32 0x40000000#32 = _
  simp [Ideal.ofBits, Ideal.ieee, -EReal.coe_mul]; norm_num

/-- The pattern of the f32 number zero. -/
theorem ofBits_zero : FloatOps.ofBits (F := Ideal) .f32 0x00000000#32 = ((0 : ℝ) : EReal) := by
  show Ideal.ofBits .f32 0x00000000#32 = _
  rw [Ideal.ofBits_zero_f32, EReal.coe_zero]

/-! ## The identity matrix -/

/-- Comparing two counters below three and converting the truth value gives the Kronecker delta. -/
theorem delta_aux (a b : ℕ) (ha : a < 3) (hb : b < 3) :
    FloatOps.uitofp (F := Ideal) .f32 (IntOp.cmpi .eq (IntOp.addi (BitVec.ofNat 32 a) 0#32) (BitVec.ofNat 32 b))
      = ((LapReal.delta ⟨a, ha⟩ ⟨b, hb⟩ : ℝ) : EReal) := by
  show (((IntOp.cmpi .eq (IntOp.addi (BitVec.ofNat 32 a) 0#32) (BitVec.ofNat 32 b)).toNat : ℝ) : EReal) = _
  interval_cases a <;> interval_cases b <;> simp [LapReal.delta, IntOp.cmpi, IntOp.addi]

theorem v7_real (j : S3x3.Idx) :
    Read.val_main_v7 (F := Ideal) j = ((LapReal.delta ⟨(j 0).val, (j 0).isLt⟩ ⟨(j 1).val, (j 1).isLt⟩ : ℝ) : EReal) := by
  rw [Read.val_main_v7_apply, Read.val_main_v6_apply, Read.val_main_v5_apply, Read.val_main_v4_apply,
    Read.val_main_c_apply, Read.val_main_v3_apply, Read.val_main_v2_apply]
  exact delta_aux _ _ _ _

theorem v8_real (i : S131072x3x3.Idx) :
    Read.val_main_v8 (F := Ideal) i = ((LapReal.delta ⟨(i 1).val, (i 1).isLt⟩ ⟨(i 2).val, (i 2).isLt⟩ : ℝ) : EReal) := by
  rw [Read.val_main_v8_apply, v7_real]

theorem v9_real (i : S131072x3x3.Idx) : Read.val_main_v9 (F := Ideal) i = ((0 : ℝ) : EReal) := by
  rw [Read.val_main_v9_apply, Read.val_main_cst_apply, ofBits_zero]

theorem v18_real (i : S131072x3x128.Idx) : Read.val_main_v18 (F := Ideal) i = ((1 : ℝ) : EReal) := by
  rw [Read.val_main_v18_apply, Read.val_main_cst_0_apply, ofBits_one]

theorem v22_real (i : S131072x3x128.Idx) : Read.val_main_v22 (F := Ideal) i = ((2 : ℝ) : EReal) := by
  rw [Read.val_main_v22_apply, Read.val_main_cst_1_apply, ofBits_two]

theorem v36_real (i : S131072x3x64.Idx) : Read.val_main_v36 (F := Ideal) i = ((1 : ℝ) : EReal) := by
  rw [Read.val_main_v36_apply, Read.val_main_cst_2_apply, ofBits_one]

theorem v40_real (i : S131072x3x64.Idx) : Read.val_main_v40 (F := Ideal) i = ((2 : ℝ) : EReal) := by
  rw [Read.val_main_v40_apply, Read.val_main_cst_3_apply, ofBits_two]

/-! ## The stages that depend on the inputs -/

section Stages

variable
    (X : (⟨S131072x3, .f32⟩ : BufTy).Contents (Elt Ideal)) (W1 : (⟨S128x3, .f32⟩ : BufTy).Contents (Elt Ideal))
    (B1 : (⟨S128, .f32⟩ : BufTy).Contents (Elt Ideal)) (W2 : (⟨S64x128, .f32⟩ : BufTy).Contents (Elt Ideal))
    (B2 : (⟨S64, .f32⟩ : BufTy).Contents (Elt Ideal)) (W3 : (⟨S1x64, .f32⟩ : BufTy).Contents (Elt Ideal))
    (xr : Fin 131072 → Fin 3 → ℝ) (N : LapReal.Net 128 64)
    (hX : ∀ j : S131072x3.Idx, X j = ((xr ⟨(j 0).val, (j 0).isLt⟩ ⟨(j 1).val, (j 1).isLt⟩ : ℝ) : EReal))
    (hW1 : ∀ j : S128x3.Idx, W1 j = ((N.W1 ⟨(j 0).val, (j 0).isLt⟩ ⟨(j 1).val, (j 1).isLt⟩ : ℝ) : EReal))
    (hB1 : ∀ j : S128.Idx, B1 j = ((N.b1 ⟨(j 0).val, (j 0).isLt⟩ : ℝ) : EReal))
    (hW2 : ∀ j : S64x128.Idx, W2 j = ((N.W2 ⟨(j 0).val, (j 0).isLt⟩ ⟨(j 1).val, (j 1).isLt⟩ : ℝ) : EReal))
    (hB2 : ∀ j : S64.Idx, B2 j = ((N.b2 ⟨(j 0).val, (j 0).isLt⟩ : ℝ) : EReal))
    (hW3 : ∀ j : S1x64.Idx, W3 j = ((N.W3 ⟨(j 1).val, (j 1).isLt⟩ : ℝ) : EReal))

include hX in
theorem v1_real (i : S131072x3x3.Idx) :
    Read.val_main_v1 (F := Ideal) X i = ((xr ⟨(i 0).val, (i 0).isLt⟩ ⟨(i 2).val, (i 2).isLt⟩ : ℝ) : EReal) := by
  rw [Read.val_main_v1_apply, Read.val_main_v0_apply, hX]

include hB1 in
theorem v12_real (i : S131072x3x128.Idx) :
    Read.val_main_v12 (F := Ideal) B1 i = ((N.b1 ⟨(i 2).val, (i 2).isLt⟩ : ℝ) : EReal) := by
  rw [Read.val_main_v12_apply, Read.val_main_v11_apply, hB1]

include hX hW1 hB1 in
/-- First layer, value. -/
theorem v13_real (i : S131072x3x128.Idx) :
    Read.val_main_v13 (F := Ideal) X W1 B1 i
      = ((LapReal.rh N (xr ⟨(i 0).val, (i 0).isLt⟩) ⟨(i 2).val, (i 2).isLt⟩ : ℝ) : EReal) := by
  rw [Read.val_main_v13_apply, Read.val_main_v10_apply, v12_real B1 N hB1, Ideal.addf_def]
  unfold LapReal.rh
  rw [EReal.coe_add, RealSums.coe_sum_real]
  congr 1
  refine Finset.sum_congr rfl fun k _ => ?_
  rw [v1_real X xr hX, hW1, ← EReal.coe_mul]

include hW1 in
/-- First layer, first coefficient: the identity matrix through the weights. -/
theorem v14_real (i : S131072x3x128.Idx) :
    Read.val_main_v14 (F := Ideal) W1 i
      = ((LapReal.re1 N ⟨(i 1).val, (i 1).isLt⟩ ⟨(i 2).val, (i 2).isLt⟩ : ℝ) : EReal) := by
  rw [Read.val_main_v14_apply]
  unfold LapReal.re1
  rw [RealSums.coe_sum_real]
  refine Finset.sum_congr rfl fun k _ => ?_
  rw [v8_real, hW1, ← EReal.coe_mul]

include hW1 in
/-- First layer, second coefficient: the zero array through the weights. -/
theorem v15_real (i : S131072x3x128.Idx) :
    Read.val_main_v15 (F := Ideal) W1 i = ((LapReal.re2 N ⟨(i 2).val, (i 2).isLt⟩ : ℝ) : EReal) := by
  rw [Read.val_main_v15_apply]
  unfold LapReal.re2
  rw [RealSums.coe_sum_real]
  refine Finset.sum_congr rfl fun k _ => ?_
  rw [v9_real, hW1, ← EReal.coe_mul]

include hX hW1 hB1 in
theorem v16_real (i : S131072x3x128.Idx) :
    Read.val_main_v16 (F := Ideal) X W1 B1 i
      = ((LapReal.ra N (xr ⟨(i 0).val, (i 0).isLt⟩) ⟨(i 2).val, (i 2).isLt⟩ : ℝ) : EReal) := by
  rw [Read.val_main_v16_apply, v13_real X W1 B1 xr N hX hW1 hB1, Ideal.hostUnary_tanh_def, Ideal.tanh_coe]
  rfl

include hX hW1 hB1 in
theorem v19_real (i : S131072x3x128.Idx) :
    Read.val_main_v19 (F := Ideal) X W1 B1 i
      = ((LapReal.rs N (xr ⟨(i 0).val, (i 0).isLt⟩) ⟨(i 2).val, (i 2).isLt⟩ : ℝ) : EReal) := by
  rw [Read.val_main_v19_apply, Read.val_main_v17_apply, v18_real, v16_real X W1 B1 xr N hX hW1 hB1,
    Ideal.subf_def, Ideal.mulf_def, ← EReal.coe_mul, ← EReal.coe_sub]
  rfl

include hX hW1 hB1 in
theorem v20_real (i : S131072x3x128.Idx) :
    Read.val_main_v20 (F := Ideal) X W1 B1 i
      = ((LapReal.rz1 N (xr ⟨(i 0).val, (i 0).isLt⟩) ⟨(i 1).val, (i 1).isLt⟩ ⟨(i 2).val, (i 2).isLt⟩ : ℝ) : EReal) := by
  rw [Read.val_main_v20_apply, v19_real X W1 B1 xr N hX hW1 hB1, v14_real W1 N hW1, Ideal.mulf_def, ← EReal.coe_mul]
  rfl

include hX hW1 hB1 in
theorem v27_real (i : S131072x3x128.Idx) :
    Read.val_main_v27 (F := Ideal) X W1 B1 i
      = ((LapReal.rz2 N (xr ⟨(i 0).val, (i 0).isLt⟩) ⟨(i 1).val, (i 1).isLt⟩ ⟨(i 2).val, (i 2).isLt⟩ : ℝ) : EReal) := by
  rw [Read.val_main_v27_apply, Read.val_main_v21_apply, Read.val_main_v26_apply, Read.val_main_v24_apply,
    Read.val_main_v23_apply, Read.val_main_v25_apply, v22_real, v19_real X W1 B1 xr N hX hW1 hB1,
    v16_real X W1 B1 xr N hX hW1 hB1, v14_real W1 N hW1, v15_real W1 N hW1]
  simp only [Ideal.subf_def, Ideal.mulf_def]
  rw [← EReal.coe_mul, ← EReal.coe_mul, ← EReal.coe_mul, ← EReal.coe_mul, ← EReal.coe_mul, ← EReal.coe_sub]
  rfl

include hB2 in
theorem v30_real (i : S131072x3x64.Idx) :
    Read.val_main_v30 (F := Ideal) B2 i = ((N.b2 ⟨(i 2).val, (i 2).isLt⟩ : ℝ) : EReal) := by
  rw [Read.val_main_v30_apply, Read.val_main_v29_apply, hB2]

include hX hW1 hB1 hW2 hB2 in
/-- Second layer, value. -/
theorem v31_real (i : S131072x3x64.Idx) :
    Read.val_main_v31 (F := Ideal) X W1 B1 W2 B2 i
      = ((LapReal.ru0 N (xr ⟨(i 0).val, (i 0).isLt⟩) ⟨(i 2).val, (i 2).isLt⟩ : ℝ) : EReal) := by
  rw [Read.val_main_v31_apply, Read.val_main_v28_apply, v30_real B2 N hB2, Ideal.addf_def]
  unfold LapReal.ru0
  rw [EReal.coe_add, RealSums.coe_sum_real]
  congr 1
  refine Finset.sum_congr rfl fun k _ => ?_
  rw [v16_real X W1 B1 xr N hX hW1 hB1, hW2, ← EReal.coe_mul]

include hX hW1 hB1 hW2 in
/-- Second layer, first coefficient. -/
theorem v32_real (i : S131072x3x64.Idx) :
    Read.val_main_v32 (F := Ideal) X W1 B1 W2 i
      = ((LapReal.ru1 N (xr ⟨(i 0).val, (i 0).isLt⟩) ⟨(i 1).val, (i 1).isLt⟩ ⟨(i 2).val, (i 2).isLt⟩ : ℝ) : EReal) := by
  rw [Read.val_main_v32_apply]
  unfold LapReal.ru1
  rw [RealSums.coe_sum_real]
  refine Finset.sum_congr rfl fun k _ => ?_
  rw [v20_real X W1 B1 xr N hX hW1 hB1, hW2, ← EReal.coe_mul]

include hX hW1 hB1 hW2 in
/-- Second layer, second coefficient. -/
theorem v33_real (i : S131072x3x64.Idx) :
    Read.val_main_v33 (F := Ideal) X W1 B1 W2 i
      = ((LapReal.ru2 N (xr ⟨(i 0).val, (i 0).isLt⟩) ⟨(i 1).val, (i 1).isLt⟩ ⟨(i 2).val, (i 2).isLt⟩ : ℝ) : EReal) := by
  rw [Read.val_main_v33_apply]
  unfold LapReal.ru2
  rw [RealSums.coe_sum_real]
  refine Finset.sum_congr rfl fun k _ => ?_
  rw [v27_real X W1 B1 xr N hX hW1 hB1, hW2, ← EReal.coe_mul]

include hX hW1 hB1 hW2 hB2 in
theorem v34_real (i : S131072x3x64.Idx) :
    Read.val_main_v34 (F := Ideal) X W1 B1 W2 B2 i
      = ((LapReal.ra2 N (xr ⟨(i 0).val, (i 0).isLt⟩) ⟨(i 2).val, (i 2).isLt⟩ : ℝ) : EReal) := by
  rw [Read.val_main_v34_apply, v31_real X W1 B1 W2 B2 xr N hX hW1 hB1 hW2 hB2, Ideal.hostUnary_tanh_def,
    Ideal.tanh_coe]
  rfl

include hX hW1 hB1 hW2 hB2 in
theorem v37_real (i : S131072x3x64.Idx) :
    Read.val_main_v37 (F := Ideal) X W1 B1 W2 B2 i
      = ((LapReal.rs2 N (xr ⟨(i 0).val, (i 0).isLt⟩) ⟨(i 2).val, (i 2).isLt⟩ : ℝ) : EReal) := by
  rw [Read.val_main_v37_apply, Read.val_main_v35_apply, v36_real,
    v34_real X W1 B1 W2 B2 xr N hX hW1 hB1 hW2 hB2, Ideal.subf_def, Ideal.mulf_def, ← EReal.coe_mul,
    ← EReal.coe_sub]
  rfl

include hX hW1 hB1 hW2 hB2 in
/-- After the second tanh: the second coefficient. -/
theorem v45_real (i : S131072x3x64.Idx) :
    Read.val_main_v45 (F := Ideal) X W1 B1 W2 B2 i
      = ((LapReal.rv2 N (xr ⟨(i 0).val, (i 0).isLt⟩) ⟨(i 1).val, (i 1).isLt⟩ ⟨(i 2).val, (i 2).isLt⟩ : ℝ) : EReal) := by
  rw [Read.val_main_v45_apply, Read.val_main_v39_apply, Read.val_main_v44_apply, Read.val_main_v42_apply,
    Read.val_main_v41_apply, Read.val_main_v43_apply, v40_real,
    v37_real X W1 B1 W2 B2 xr N hX hW1 hB1 hW2 hB2, v34_real X W1 B1 W2 B2 xr N hX hW1 hB1 hW2 hB2,
    v32_real X W1 B1 W2 xr N hX hW1 hB1 hW2, v33_real X W1 B1 W2 xr N hX hW1 hB1 hW2]
  simp only [Ideal.subf_def, Ideal.mulf_def]
  rw [← EReal.coe_mul, ← EReal.coe_mul, ← EReal.coe_mul, ← EReal.coe_mul, ← EReal.coe_mul, ← EReal.coe_sub]
  rfl

include hX hW1 hB1 hW2 hB2 hW3 in
/-- Output layer, second coefficient. -/
theorem v51_real (i : S131072x3x1.Idx) :
    Read.val_main_v51 (F := Ideal) X W1 B1 W2 B2 W3 i
      = ((LapReal.rF N (xr ⟨(i 0).val, (i 0).isLt⟩) ⟨(i 1).val, (i 1).isLt⟩ : ℝ) : EReal) := by
  rw [Read.val_main_v51_apply]
  unfold LapReal.rF
  rw [RealSums.coe_sum_real]
  refine Finset.sum_congr rfl fun k _ => ?_
  rw [v45_real X W1 B1 W2 B2 xr N hX hW1 hB1 hW2 hB2, hW3, ← EReal.coe_mul]

end Stages

theorem result_real
    (X : (⟨S131072x3, .f32⟩ : BufTy).Contents (Elt Ideal)) (W1 : (⟨S128x3, .f32⟩ : BufTy).Contents (Elt Ideal))
    (B1 : (⟨S128, .f32⟩ : BufTy).Contents (Elt Ideal)) (W2 : (⟨S64x128, .f32⟩ : BufTy).Contents (Elt Ideal))
    (B2 : (⟨S64, .f32⟩ : BufTy).Contents (Elt Ideal)) (W3 : (⟨S1x64, .f32⟩ : BufTy).Contents (Elt Ideal))
    (xr : Fin 131072 → Fin 3 → ℝ) (N : LapReal.Net 128 64)
    (hX : ∀ j : S131072x3.Idx, X j = ((xr ⟨(j 0).val, (j 0).isLt⟩ ⟨(j 1).val, (j 1).isLt⟩ : ℝ) : EReal))
    (hW1 : ∀ j : S128x3.Idx, W1 j = ((N.W1 ⟨(j 0).val, (j 0).isLt⟩ ⟨(j 1).val, (j 1).isLt⟩ : ℝ) : EReal))
    (hB1 : ∀ j : S128.Idx, B1 j = ((N.b1 ⟨(j 0).val, (j 0).isLt⟩ : ℝ) : EReal))
    (hW2 : ∀ j : S64x128.Idx, W2 j = ((N.W2 ⟨(j 0).val, (j 0).isLt⟩ ⟨(j 1).val, (j 1).isLt⟩ : ℝ) : EReal))
    (hB2 : ∀ j : S64.Idx, B2 j = ((N.b2 ⟨(j 0).val, (j 0).isLt⟩ : ℝ) : EReal))
    (hW3 : ∀ j : S1x64.Idx, W3 j = ((N.W3 ⟨(j 1).val, (j 1).isLt⟩ : ℝ) : EReal))
    (i : S131072x1.Idx) :
    Cert.ReferenceIdeal.Read.val_main_v52 (F := Ideal) X W1 B1 W2 B2 W3 i
      = ((LapReal.rout N (xr ⟨(i 0).val, (i 0).isLt⟩) : ℝ) : EReal) := by
  rw [Read.val_main_v52_apply, Read.val_main_cst_4_apply, ofBits_zero]
  unfold LapReal.rout
  rw [EReal.coe_add, RealSums.coe_sum_real]
  congr 1
  refine Finset.sum_congr rfl fun k _ => ?_
  rw [v51_real X W1 B1 W2 B2 W3 xr N hX hW1 hB1 hW2 hB2 hW3]

end Cert.ReferenceIdeal.RefReal

end
-- ==== Proof.LapLaw.lean ====
/-
  The two arrangements of the Laplacian of x ↦ W3 · tanh (W2 · tanh (W1 · x + b1) + b2) agree over ℝ.

  The first coefficient of the first layer in direction d is the column d of W1 and its second coefficient vanishes;
  the values of both arrangements agree up to the order of the factors under the sums.  The second coefficient after the
  first tanh in direction d is −2 · a · s · (W1 o d)², and adding the three directions gives −2 · a · s · (row sum of
  squares), which is the summed coefficient.  The later layers are linear in the second coefficient, so the sum over
  the directions can be taken before or after them; the quadratic term collects the squares of the first coefficients.
-/
import proofs.«181536_j17351667876341_2_alg».proof.Proof.LapReal
import Mathlib.Tactic.Ring
import Mathlib.Tactic.Linarith

open scoped BigOperators

namespace LapReal

variable {H1 H2 : ℕ} (N : Net H1 H2) (x : Fin 3 → ℝ)

/-- The first coefficient of the first layer in direction d is the entry (o, d) of W1. -/
private theorem re1_eq (d : Fin 3) (o : Fin H1) : re1 N d o = N.W1 o d := by
  unfold re1 delta
  simp

/-- The second coefficient of the first layer vanishes. -/
private theorem re2_eq (o : Fin H1) : re2 N o = 0 := by
  unfold re2
  simp

private theorem rh_eq (o : Fin H1) : rh N x o = kh N x o := by
  unfold rh kh
  congr 1
  exact Finset.sum_congr rfl (fun i _ => mul_comm _ _)

private theorem ra_eq (o : Fin H1) : ra N x o = ka N x o := by
  unfold ra ka
  rw [rh_eq]

private theorem rs_eq (o : Fin H1) : rs N x o = ks N x o := by
  unfold rs ks
  rw [ra_eq]

private theorem ru0_eq (p : Fin H2) : ru0 N x p = (∑ o, N.W2 p o * ka N x o) + N.b2 p := by
  unfold ru0
  congr 1
  exact Finset.sum_congr rfl (fun o _ => by rw [ra_eq]; exact mul_comm _ _)

private theorem ra2_eq (p : Fin H2) : ra2 N x p = ka2 N x p := by
  unfold ra2 ka2
  rw [ru0_eq]

private theorem rs2_eq (p : Fin H2) : rs2 N x p = ks2 N x p := by
  unfold rs2 ks2
  rw [ra2_eq]

/-- The first coefficient of the second layer agrees in both arrangements. -/
private theorem ru1_eq (d : Fin 3) (p : Fin H2) : ru1 N x d p = ky1 N x d p := by
  unfold ru1 ky1 rz1
  exact Finset.sum_congr rfl (fun o _ => by rw [rs_eq, re1_eq]; ring)

/-- The second coefficient of the second layer in direction d. -/
private theorem ru2_eq (d : Fin 3) (p : Fin H2) :
    ru2 N x d p = ∑ o, N.W2 p o * (((-2 : ℝ) * ka N x o) * ks N x o * (N.W1 o d * N.W1 o d)) := by
  unfold ru2 rz2
  exact Finset.sum_congr rfl (fun o _ => by rw [rs_eq, ra_eq, re1_eq, re2_eq]; ring)

/-- Adding the three directions gives the summed second coefficient. -/
private theorem sum_ru2_eq (p : Fin H2) :
    ru2 N x 0 p + ru2 N x 1 p + ru2 N x 2 p = ky22 N x p := by
  rw [ru2_eq, ru2_eq, ru2_eq]
  unfold ky22 kc krs
  rw [← Finset.sum_add_distrib, ← Finset.sum_add_distrib]
  exact Finset.sum_congr rfl (fun o _ => by rw [Fin.sum_univ_three]; ring)

theorem kout_eq_rout {H1 H2 : ℕ} (N : Net H1 H2) (x : Fin 3 → ℝ) : kout N x = rout N x := by
  unfold kout rout
  rw [Fin.sum_univ_three]
  unfold rF
  rw [zero_add, ← Finset.sum_add_distrib, ← Finset.sum_add_distrib]
  refine Finset.sum_congr rfl (fun p _ => ?_)
  unfold rv2 kc3 kssq
  rw [rs2_eq, ra2_eq, ru1_eq, ru1_eq, ru1_eq, ← sum_ru2_eq]
  ring

end LapReal
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.FiniteEntries.lean ====
/-
  The precondition "every float input is finite", read back on the extended reals: the printed predicate is, for each
  of the seven arrays, the conjunction over all its entries of `|x| < +∞`, and the seven conjunctions joined by `and`.
  Split at the `and`s, each array's conjunction says that every entry of that array is a real number.
-/
import proofs.«181536_j17351667876341_2_alg».proof.Pre_finite_inputs
import proofs.«181536_j17351667876341_2_alg».proof.Proof.Gen.Pre_finite_inputs
import proofs.«181536_j17351667876341_2_alg».proof.Proof.LibFiniteReal

noncomputable section

namespace Cert.FiniteEntries

open Idealize.ShloMosaic Cert.Pre_finite_inputs FiniteReal

theorem entries_real (a0 : FVec Ideal S131072x3 .f32) (a1 : FVec Ideal S128x3 .f32) (a2 : FVec Ideal S128 .f32)
    (a3 : FVec Ideal S64x128 .f32) (a4 : FVec Ideal S64 .f32) (a5 : FVec Ideal S1x64 .f32) (a6 : FVec Ideal S1 .f32)
    (h : Cert.Pre_finite_inputs.fn (F := Ideal) a0 a1 a2 a3 a4 a5 a6 = (fun _ => 1#1)) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) ∧ (∀ j, ∃ r : ℝ, a5 j = (r : EReal)) := by
  -- the predicate's one Boolean, at the one index of the rank-0 shape
  have e := congrFun h ValueIdx.ix0
  dsimp only [Cert.Pre_finite_inputs.fn, Cert.Pre_finite_inputs.fn_part1, andi] at e
  -- the seven conjuncts, joined left to right
  simp only [IntOp.andi_eq_one] at e
  obtain ⟨⟨⟨⟨⟨⟨e0, e1⟩, e2⟩, e3⟩, e4⟩, e5⟩, -⟩ := e
  exact ⟨all_real _ _ _ a0 _ e0, all_real _ _ _ a1 _ e1, all_real _ _ _ a2 _ e2, all_real _ _ _ a3 _ e3,
    all_real _ _ _ a4 _ e4, all_real _ _ _ a5 _ e5⟩

end Cert.FiniteEntries

end
-- ==== Proof.lean ====
/-
  The Laplacian of the scalar network x ↦ W3 · tanh (W2 · tanh (W1 · x + b1) + b2) on ℝ³ at 131072 points: the kernel
  program against the reference program, on the extended reals.

  The reference carries, for each of the three coordinate directions, a second-order Taylor jet through the three layers
  (contractions over the feature axis, bias on the value only, tanh's jet rule) and adds the three second coefficients.
  The kernel program transposes the points to a 3 × 131072 array, precomputes the row-wise sums of squares of W1, and on
  each block of 4096 points carries the SUM over the directions of the second coefficients through the layers — the later
  layers are linear in them — and per direction only the first coefficients, whose squares it adds; it writes one row of
  results, which the host transposes back to a column.

  The two arrangements agree by distributivity (a factor moved across a sum, a sum over the directions exchanged with a
  contraction), which on the extended reals needs every entry to be a real number.  The precondition gives exactly that
  for the inputs (`FiniteEntries`); every intermediate of either program is then a real number too (sums, products,
  differences and tanh of reals), so each program's result entry is read as a real formula (`KerPay` … `KerRun` for the
  kernel program, `RefReal` for the reference) and the two formulas are equal over ℝ (`LapLaw`).  Nothing was rewritten
  by the idealization, so the conjunct about it is trivial; the three frame conjuncts are the generated frame runs.
-/
import proofs.«181536_j17351667876341_2_alg».proof.Defs
import proofs.«181536_j17351667876341_2_alg».proof.Proof.Gen.Kernel
import proofs.«181536_j17351667876341_2_alg».proof.Proof.Gen.Kernel.Skeleton
import proofs.«181536_j17351667876341_2_alg».proof.Proof.Gen.Kernel.Launch
import proofs.«181536_j17351667876341_2_alg».proof.Proof.Gen.Kernel.Points
import proofs.«181536_j17351667876341_2_alg».proof.Proof.Gen.Kernel.Frame
import proofs.«181536_j17351667876341_2_alg».proof.Proof.Gen.KernelIdeal
import proofs.«181536_j17351667876341_2_alg».proof.Proof.Gen.KernelIdeal.Skeleton
import proofs.«181536_j17351667876341_2_alg».proof.Proof.Gen.KernelIdeal.Launch
import proofs.«181536_j17351667876341_2_alg».proof.Proof.Gen.KernelIdeal.Points
import proofs.«181536_j17351667876341_2_alg».proof.Proof.Gen.KernelIdeal.Frame
import proofs.«181536_j17351667876341_2_alg».proof.Proof.Gen.ReferenceIdeal
import proofs.«181536_j17351667876341_2_alg».proof.Proof.Gen.Pre_finite_inputs
import proofs.«181536_j17351667876341_2_alg».proof.Proof.Gen.ReferenceIdeal.Run
import proofs.«181536_j17351667876341_2_alg».proof.Proof.Gen.ReferenceIdeal.Read
import proofs.«181536_j17351667876341_2_alg».proof.Proof.KerRun
import proofs.«181536_j17351667876341_2_alg».proof.Proof.RefReal
import proofs.«181536_j17351667876341_2_alg».proof.Proof.LapLaw
import proofs.«181536_j17351667876341_2_alg».proof.Proof.FiniteEntries
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel program's result column is the reference's result term of the SAME argument
    arrays: entry (n, 0) of either is the Laplacian at point n, in the summed arrangement for the one and direction by
    direction for the other, and the two real numbers are equal. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v7
      = Cert.ReferenceIdeal.Read.val_main_v52 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨f0, f1, f2, f3, f4, f5⟩ := Cert.FiniteEntries.entries_real _ _ _ _ _ _ _ (hpre c)
  choose x0 h0 using f0
  choose x1 h1 using f1
  choose x2 h2 using f2
  choose x3 h3 using f3
  choose x4 h4 using f4
  choose x5 h5 using f5
  funext i
  rw [Cert.KernelIdeal.KerRun.tail_apply m (fun n i => x0 (ix2 n i))
      ⟨fun o i => x1 (ix2 o i), fun o => x2 (ix1 o), fun p o => x3 (ix2 p o), fun p => x4 (ix1 p),
        fun p => x5 (ix2 (0 : Fin 1) p)⟩ c
      (fun n i => h0 _) (fun o i => h1 _) (fun o => h2 _) (fun p o => h3 _) (fun p => h4 _)
      (fun u p => by have hu : u = 0 := Subsingleton.elim _ _; subst hu; exact h5 _) i,
    Cert.ReferenceIdeal.RefReal.result_real _ _ _ _ _ _ (fun n i => x0 (ix2 n i))
      ⟨fun o i => x1 (ix2 o i), fun o => x2 (ix1 o), fun p o => x3 (ix2 p o), fun p => x4 (ix1 p),
        fun p => x5 (ix2 (0 : Fin 1) p)⟩
      (fun j => (h0 j).trans (congrArg (fun k => ((x0 k : ℝ) : EReal)) (eq_ix2 j)))
      (fun j => (h1 j).trans (congrArg (fun k => ((x1 k : ℝ) : EReal)) (eq_ix2 j)))
      (fun j => (h2 j).trans (congrArg (fun k => ((x2 k : ℝ) : EReal)) (eq_ix1 j)))
      (fun j => (h3 j).trans (congrArg (fun k => ((x3 k : ℝ) : EReal)) (eq_ix2 j)))
      (fun j => (h4 j).trans (congrArg (fun k => ((x4 k : ℝ) : EReal)) (eq_ix1 j)))
      (fun j => (h5 j).trans (congrArg (fun k => ((x5 k : ℝ) : EReal))
        (funext fun a => Fin.ext (by
          match a with
          | ⟨0, _⟩ => have hj : (j 0).val < 1 := (j 0).isLt; show (j 0).val = 0; omega
          | ⟨1, _⟩ => rfl)))) i]
  exact congrArg _ (LapReal.kout_eq_rout _ _)

/-- From memories agreeing on the arguments both programs run, end with equal result columns, and leave their
    arguments unchanged. -/
theorem algebraic : Cert.algebraic_KernelIdeal_ReferenceIdeal := by
  intro m ρ m' ρ' hpre hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KerRun.run m ρ _ (fun c => result_eq m hpre c), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, -⟩ := hagree c
  rw [Cert.ReferenceIdeal.Read.val_main_v52_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
